-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x32x512x512 : Shape := ⟨4, ![8, 32, 512, 512]⟩
abbrev S_ : Shape := ⟨0, ![]⟩

class Facts : Prop where
  bcast_S_S8x32x512x512 : S_.BroadcastsInDim S8x32x512x512 (![] : Fin 0 → Fin S8x32x512x512.rank)
  reducesTo_S8x32x512x512_S_d0_1_2_3 : S8x32x512x512.ReducesTo [0, 1, 2, 3] S_
  h_S_ : 0 < S_.numel

variable [Facts]

def fn {F : FTy → Type} [FloatOps F] (main_arg0 : FVec F S8x32x512x512 .f32) : IVec S_ 1 :=
  let main_v0 : FVec F S8x32x512x512 .f32 := Host.absf main_arg0
  let main_cst : FVec F S_ .f32 := constant S_ .f32 0x7F800000#32
  let main_v1 : FVec F S8x32x512x512 .f32 := broadcastInDim S8x32x512x512 ![] bcast_S_S8x32x512x512 main_cst
  let main_v2 : IVec S8x32x512x512 1 := cmpf .olt main_v0 main_v1
  let main_c : IVec S_ 1 := constantI S_ 1 1#1
  let main_v3 : IVec S_ 1 := (fun x v => Host.reduce IntOp.andi x v reducesTo_S8x32x512x512_S_d0_1_2_3 h_S_) main_v2 main_c
  main_v3
-- ==== Kernel.lean ====
abbrev S8x32x512x512 : Shape := ⟨4, ![8, 32, 512, 512]⟩
abbrev S8x512x512 : Shape := ⟨3, ![8, 512, 512]⟩
abbrev S1x32x32x512 : Shape := ⟨4, ![1, 32, 32, 512]⟩
abbrev S1x32x512 : Shape := ⟨3, ![1, 32, 512]⟩
abbrev S32x1x512 : Shape := ⟨3, ![32, 1, 512]⟩
abbrev S32x32x512 : Shape := ⟨3, ![32, 32, 512]⟩
abbrev S32x512 : Shape := ⟨2, ![32, 512]⟩

abbrev nBuf : Space → Nat
  | .hbm => 2
  | .vmem => 5
  | .smem => 0
  | _ => 0

abbrev bufTy : (tb : Table) → Fin (tcTables nBuf tb) → BufTy
  | .hbm, ⟨0, _⟩ => ⟨S8x32x512x512, .f32⟩
  | .hbm, ⟨1, _⟩ => ⟨S8x512x512, .f32⟩
  | .local _ .vmem, ⟨0, _⟩ => ⟨S1x32x32x512, .f32⟩
  | .local _ .vmem, ⟨1, _⟩ => ⟨S1x32x32x512, .f32⟩
  | .local _ .vmem, ⟨2, _⟩ => ⟨S1x32x512, .f32⟩
  | .local _ .vmem, ⟨3, _⟩ => ⟨S1x32x512, .f32⟩
  | .local _ .vmem, ⟨4, _⟩ => ⟨S32x1x512, .f32⟩
  | _, _ => ⟨S8x32x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 16], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x32x32x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  inb_S32x1x512_S32x1x512_0_0_0 : ∀ a, (![0, 0, 0] : Fin 3 → Nat) a + S32x1x512.size a ≤ S32x1x512.size a
  h_S32x1x512 : 0 < S32x1x512.numel
  shapeCasts_S32x1x512_S32x1x512 : S32x1x512.ShapeCasts S32x1x512
  inb_S1x32x32x512_S1x32x32x512_0_0_0_0 : ∀ a, (![0, 0, 0, 0] : Fin 4 → Nat) a + S1x32x32x512.size a ≤ S1x32x32x512.size a
  h_S1x32x32x512 : 0 < S1x32x32x512.numel
  shapeCasts_S1x32x32x512_S32x32x512 : S1x32x32x512.ShapeCasts S32x32x512
  iota_S32x32x512_d1_w32 : S32x32x512.Iotas .tc 32 [1]
  broadcasts_S32x1x512_S32x32x512 : S32x1x512.Broadcasts S32x32x512
  rotates_S32x32x512_d1 : S32x32x512.Rotates 1 none
  iota_S32x32x512_d2_w32 : S32x32x512.Iotas .tc 32 [2]
  rotates_S32x32x512_d2 : S32x32x512.Rotates 2 none
  reduces_S32x32x512_S32x512 : S32x32x512.Reduces [0] S32x512
  inb_S1x32x512_S1x32x512_0_0_0 : ∀ a, (![0, 0, 0] : Fin 3 → Nat) a + S1x32x512.size a ≤ S1x32x512.size a
  h_S1x32x512 : 0 < S1x32x512.numel
  shapeCasts_S1x32x512_S32x512 : S1x32x512.ShapeCasts S32x512
  shapeCasts_S32x512_S1x32x512 : S32x512.ShapeCasts S1x32x512
  slices_S32x32x512_o0_31_0_S32x1x512 : S32x32x512.Slices ![0, 31, 0] S32x1x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x32x512.size a ≤ S8x32x512x512.size a
  hwx0_0 : ∀ i : grid0.Coords, EltTy.bits .f32 = 32 ∨ (Rect.block (s := S8x32x512x512) S1x32x32x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32x512.size a ≤ S8x512x512.size a
  hwx0_1 : ∀ i : grid0.Coords, EltTy.bits .f32 = 32 ∨ (Rect.block (s := S8x512x512) S1x32x512.size (cc0_transform_1 i) (hinb0_1 i)).WholeWords (EltTy.packing .f32)

variable [Facts₀]

abbrev win0_0 : Pipeline.Window sig grid0 :=
  Pipeline.Window.ofSpec (Memref.whole main_arg0) S1x32x32x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x32x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8x32x512x512 : Shape := ⟨4, ![8, 32, 512, 512]⟩
abbrev S_ : Shape := ⟨0, ![]⟩
abbrev S8x32x513x512 : Shape := ⟨4, ![8, 32, 513, 512]⟩
abbrev S8x32x512x513 : Shape := ⟨4, ![8, 32, 512, 513]⟩
abbrev S8x512x512 : Shape := ⟨3, ![8, 512, 512]⟩

abbrev nBuf : Space → Nat
  | .hbm => 16
  | .vmem => 0
  | .smem => 0
  | _ => 0

abbrev bufTy : (tb : Table) → Fin (tcTables nBuf tb) → BufTy
  | .hbm, ⟨0, _⟩ => ⟨S8x32x512x512, .f32⟩
  | .hbm, ⟨1, _⟩ => ⟨S_, .i32⟩
  | .hbm, ⟨2, _⟩ => ⟨S_, .f32⟩
  | .hbm, ⟨3, _⟩ => ⟨S8x32x513x512, .f32⟩
  | .hbm, ⟨4, _⟩ => ⟨S8x32x512x512, .f32⟩
  | .hbm, ⟨5, _⟩ => ⟨S_, .i32⟩
  | .hbm, ⟨6, _⟩ => ⟨S_, .f32⟩
  | .hbm, ⟨7, _⟩ => ⟨S8x32x512x513, .f32⟩
  | .hbm, ⟨8, _⟩ => ⟨S8x32x512x512, .f32⟩
  | .hbm, ⟨9, _⟩ => ⟨S8x32x512x512, .f32⟩
  | .hbm, ⟨10, _⟩ => ⟨S8x32x512x512, .f32⟩
  | .hbm, ⟨11, _⟩ => ⟨S8x32x512x512, .f32⟩
  | .hbm, ⟨12, _⟩ => ⟨S8x32x512x512, .f32⟩
  | .hbm, ⟨13, _⟩ => ⟨S8x32x512x512, .f32⟩
  | .hbm, ⟨14, _⟩ => ⟨S_, .f32⟩
  | .hbm, ⟨15, _⟩ => ⟨S8x512x512, .f32⟩
  | _, _ => ⟨S8x32x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_call1_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩

abbrev nD : Nat := 1
abbrev τ : Topo := Topo.v7x

variable {F : FTy → Type} [FloatOps F]

class Facts₀ : Prop where
  pads_S8x32x512x512_S8x32x513x512_000_000_100_000 : S8x32x512x512.Pads (![0, 0, 1, 0] : Fin 4 → Nat) ![0, 0, 0, 0] ![0, 0, 0, 0] S8x32x513x512
  h_S_ : 0 < S_.numel
  slices_S8x32x513x512_S8x32x512x512_0_0_0_0 : S8x32x513x512.Slices ![0, 0, 0, 0] S8x32x512x512
  pads_S8x32x512x512_S8x32x512x513_000_000_000_100 : S8x32x512x512.Pads (![0, 0, 0, 1] : Fin 4 → Nat) ![0, 0, 0, 0] ![0, 0, 0, 0] S8x32x512x513
  slices_S8x32x512x513_S8x32x512x512_0_0_0_0 : S8x32x512x513.Slices ![0, 0, 0, 0] S8x32x512x512
  reducesTo_S8x32x512x512_S8x512x512_d1 : S8x32x512x512.ReducesTo [1] S8x512x512

variable [Facts₀]

class Facts : Prop extends Facts₀ where

variable [Facts]
-- ==== Proof.Spec.lean ====
/-
  The function both programs compute, index by index, on the extended reals.

  For an array x : [8, 32, 512, 512] the result at (b, h, w) is the sum over the 32 channels c of
      |above(b,c,h,w) - x(b,c,h,w)| + |before(b,c,h,w) - x(b,c,h,w)|
  where above is x one row up (zero for the top row h = 0) and before is x one column to the left
  (zero for the first column w = 0): a total-variation map with zero padding, summed over channels.
  No law of arithmetic is needed between the two sides beyond the sum over channels being a sum: the
  same differences and absolute values appear on both, so nothing here asks the entries to be finite.
-/
import Idealize.ShloMosaic.PureOps.Ideal
import Idealize.ShloMosaic.PureOps.Ideal.Laws
import Idealize.ShloMosaic.Lib.ValueIdx
import Idealize.ShloMosaic.Lib.Affine

noncomputable section

open scoped BigOperators

namespace Cert.TV

open Idealize.ShloMosaic Idealize.ShloMosaic.ValueIdx

/-- The absolute value on the extended reals, as the maximum of a number and its negation. -/
def absE (a : EReal) : EReal := max a (-a)

/-- The coordinate before `k` on its axis (`k` itself at `0`, where it is never read). -/
def prev {n : Nat} (k : Fin n) : Fin n := ⟨k.val - 1, by have := k.isLt; omega⟩

theorem prev_val {n : Nat} (k : Fin n) : (prev k).val = k.val - 1 := rfl

/-- The array's shape, and the result's. -/
abbrev SX : Shape := ⟨4, ![8, 32, 512, 512]⟩
abbrev SO : Shape := ⟨3, ![8, 512, 512]⟩

/-- The entry one row above `(b, c, h, w)`, zero above the top row. -/
def above (x : SX.Idx → EReal) (b : Fin 8) (c : Fin 32) (h w : Fin 512) : EReal :=
  if h.val = 0 then 0 else x (ix4 b c (prev h) w)

/-- The entry one column before `(b, c, h, w)`, zero before the first column. -/
def before (x : SX.Idx → EReal) (b : Fin 8) (c : Fin 32) (h w : Fin 512) : EReal :=
  if w.val = 0 then 0 else x (ix4 b c h (prev w))

/-- One channel's contribution at `(b, h, w)`: the two absolute differences added. -/
def term (x : SX.Idx → EReal) (b : Fin 8) (c : Fin 32) (h w : Fin 512) : EReal :=
  absE (above x b c h w - x (ix4 b c h w)) + absE (before x b c h w - x (ix4 b c h w))

/-- The result: the channels' contributions summed. -/
def G (x : SX.Idx → EReal) : SO.Idx → EReal :=
  fun i => ∑ c : Fin 32, term x (i 0) c (i 1) (i 2)

theorem G_apply (x : SX.Idx → EReal) (b : Fin 8) (h w : Fin 512) :
    G x (ix3 b h w) = ∑ c : Fin 32, term x b c h w := rfl

/-- A select on "coordinate `n` is 0", the coordinate read as a 32-bit word, is the `if` on `n`. -/
theorem select_coord_zero {α : Type} (n : Nat) (hn : n < 4294967296) (A B : α) :
    Scalar.select (IntOp.cmpi .eq (BitVec.ofNat 32 n) 0#32) A B = if n = 0 then A else B := by
  unfold Scalar.select
  by_cases h : n = 0
  · subst h
    rw [if_pos rfl]
    exact if_pos (IntOp.cmpi_eq.2 rfl)
  · rw [if_neg h]
    refine if_neg fun hc => h ?_
    have e := congrArg BitVec.toNat (IntOp.cmpi_eq.1 hc)
    rw [BitVec.toNat_ofNat] at e
    simp only [BitVec.toNat_ofNat, Nat.zero_mod] at e
    omega

end Cert.TV

end
-- ==== Proof.RefIsSpec.lean ====
/-
  The reference computes the specification.

  The host program pads the array with one zero row at the top (then keeps the first 512 rows), which is the
  array read one row up with a zero above the top row; pads with one zero column on the left (then keeps the
  first 512 columns), which is the array read one column to the left with a zero before the first column;
  subtracts the array from each, takes absolute values, adds the two, and sums over the channel axis from zero.
  Read at an index (b, h, w) that is the sum over channels of the specification's terms.
-/
import proofs.«176600_j26268019982520_1_alg».proof.Proof.Gen.ReferenceIdeal.Read
import proofs.«176600_j26268019982520_1_alg».proof.Proof.Spec
import Idealize.ShloMosaic.Lib.KernelVsHost

noncomputable section

open scoped BigOperators

namespace Cert.TV.Ref

open Cert.ReferenceIdeal Cert.ReferenceIdeal.Gen Cert.ReferenceIdeal.Read
open Idealize.ShloMosaic Idealize.ShloMosaic.ValueIdx Cert.TV

/-- The integer zero converted to a float is the real zero. -/
theorem sitofp_zero : FloatOps.sitofp (F := Ideal) .f32 (0#32 : BitVec 32) = (0 : EReal) := by
  show (((0#32 : BitVec 32).toInt : ℝ) : EReal) = 0
  rw [show (0#32 : BitVec 32).toInt = 0 from by decide]
  simp

/-- The array padded with a zero row on top and cut back to 512 rows, read at (b, c, h, w), is the entry one
    row above, zero above the top row. -/
theorem rows_shifted (x : FVec Ideal S8x32x512x512 .f32) (b : Fin 8) (c : Fin 32) (h w : Fin 512) :
    val_main_v1 (F := Ideal) x (ix4 b c h w) = above x b c h w := by
  rw [val_main_v1_apply]
  unfold val_main_v0 above
  by_cases hh : h.val = 0
  · rw [if_pos hh,
      pad_apply_of_not_inside ![0, 0, 1, 0] ![0, 0, 0, 0] ![0, 0, 0, 0] x (val_main_call0_v0 (F := Ideal))
        pads_S8x32x512x512_S8x32x513x512_000_000_100_000 h_S_ (idx_main_v1 (ix4 b c h w)) (2 : Fin 4)
        (fun hc => by have h1 : 1 ≤ h.val := hc.1; omega),
      val_main_call0_v0_apply, val_main_c_apply]
    exact sitofp_zero
  · rw [if_neg hh]
    exact pad_apply_of_inside ![0, 0, 1, 0] ![0, 0, 0, 0] ![0, 0, 0, 0] x (val_main_call0_v0 (F := Ideal))
      pads_S8x32x512x512_S8x32x513x512_000_000_100_000 h_S_ (idx_main_v1 (ix4 b c h w)) (ix4 b c (prev h) w)
      (fun a => match a with
        | ⟨0, _⟩ => by show b.val = 0 + b.val * (0 + 1); omega
        | ⟨1, _⟩ => by show c.val = 0 + c.val * (0 + 1); omega
        | ⟨2, _⟩ => by show h.val = 1 + (h.val - 1) * (0 + 1); omega
        | ⟨3, _⟩ => by show w.val = 0 + w.val * (0 + 1); omega)

/-- The array padded with a zero column on the left and cut back to 512 columns, read at (b, c, h, w), is the
    entry one column before, zero before the first column. -/
theorem cols_shifted (x : FVec Ideal S8x32x512x512 .f32) (b : Fin 8) (c : Fin 32) (h w : Fin 512) :
    val_main_v3 (F := Ideal) x (ix4 b c h w) = before x b c h w := by
  rw [val_main_v3_apply]
  unfold val_main_v2 before
  by_cases hw : w.val = 0
  · rw [if_pos hw,
      pad_apply_of_not_inside ![0, 0, 0, 1] ![0, 0, 0, 0] ![0, 0, 0, 0] x (val_main_call1_v0 (F := Ideal))
        pads_S8x32x512x512_S8x32x512x513_000_000_000_100 h_S_ (idx_main_v3 (ix4 b c h w)) (3 : Fin 4)
        (fun hc => by have h1 : 1 ≤ w.val := hc.1; omega),
      val_main_call1_v0_apply, val_main_c_0_apply]
    exact sitofp_zero
  · rw [if_neg hw]
    exact pad_apply_of_inside ![0, 0, 0, 1] ![0, 0, 0, 0] ![0, 0, 0, 0] x (val_main_call1_v0 (F := Ideal))
      pads_S8x32x512x512_S8x32x512x513_000_000_000_100 h_S_ (idx_main_v3 (ix4 b c h w)) (ix4 b c h (prev w))
      (fun a => match a with
        | ⟨0, _⟩ => by show b.val = 0 + b.val * (0 + 1); omega
        | ⟨1, _⟩ => by show c.val = 0 + c.val * (0 + 1); omega
        | ⟨2, _⟩ => by show h.val = 0 + h.val * (0 + 1); omega
        | ⟨3, _⟩ => by show w.val = 1 + (w.val - 1) * (0 + 1); omega)

/-- The index the channel sum reads at (b, h, w) for channel c is (b, c, h, w). -/
theorem channel_idx (b : Fin 8) (h w : Fin 512) (c : Fin 32) : idx_main_v9 (ix3 b h w) c = ix4 b c h w :=
  funext fun a => Fin.ext (by match a with | ⟨0, _⟩ => rfl | ⟨1, _⟩ => rfl | ⟨2, _⟩ => rfl | ⟨3, _⟩ => rfl)

/-- The reference's result is the specification of its argument. -/
theorem result_eq (x : FVec Ideal S8x32x512x512 .f32) : val_main_v9 (F := Ideal) x = G x := by
  funext i
  obtain ⟨b, h, w, rfl⟩ : ∃ (b : Fin 8) (h w : Fin 512), i = ix3 b h w := ⟨i 0, i 1, i 2, eq_ix3 i⟩
  rw [val_main_v9_apply, val_main_cst_apply, G_apply, Ideal.ofBits_def, Ideal.ofBits_zero_f32, zero_add]
  refine Finset.sum_congr rfl fun c _ => ?_
  rw [channel_idx, val_main_v8_apply, val_main_v5_apply, val_main_v7_apply, val_main_v4_apply, val_main_v6_apply,
    rows_shifted, cols_shifted]
  rfl

end Cert.TV.Ref

end
-- ==== Proof.Pieces.lean ====
/-
  What one run of the kernel body leaves behind, as values, at any float instance.

  At a grid point whose tile-row coordinate is 0 the body first stores the zero splat into the saved row and so
  reads zero as the row above its block; at any other point it reads what the point before left there. In both
  cases it then stores to the output block the channel sum `k0_pay3` of the input block and of the saved row it
  read, and stores back row 31 of the input block, `k0_pay4`, as the new saved row. Each store covers its whole
  buffer, so what a buffer holds afterwards is the last store's value.
-/
import proofs.«176600_j26268019982520_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.TV

open Cert.KernelIdeal Cert.KernelIdeal.Gen

variable {F : FTy → Type} [FloatOps F]

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- Away from a tile-row 0 point: the saved row ends at row 31 of the input block. -/
theorem saved_B (c : Dev nD) (i : grid0.Coords) (a2 : Memref sig .tc .vmem S1x32x32x512 .f32) (h2 : a2.IsWhole)
    (a3 : Memref sig .tc .vmem S1x32x512 .f32) (h3 : a3.IsWhole) (a4 : Memref sig .tc .vmem S32x1x512 .f32) (h4 : a4.IsWhole)
    (hc : ¬cond0_0 i) (x0 : Vec F S1x32x32x512 .f32) (xs0 : Vec F S32x1x512 .f32) :
    sout0_B_0 c i a2 h2 a3 h3 a4 h4 hc x0 xs0 = k0_pay4 x0 := by
  unfold sout0_B_0
  rw [View.read_writes_eq_canon _ _ _ (scover0_B_0 c i a2 h2 a3 h3 a4 h4 hc x0 xs0)]
  unfold kernelRun0_B
  dsimp only
  try sl_unfold_words
  rw [View.canon_unit_zero hz3]
  simp only [View.readAt_eq_ld, h2.read_unread, View.ld_unit_zero (S := S1x32x32x512) hz4]

/-- Away from a tile-row 0 point: the output block ends at the channel sum over the input block and the saved
    row the point before left. -/
theorem out_B (c : Dev nD) (i : grid0.Coords) (a2 : Memref sig .tc .vmem S1x32x32x512 .f32) (h2 : a2.IsWhole)
    (a3 : Memref sig .tc .vmem S1x32x512 .f32) (h3 : a3.IsWhole) (a4 : Memref sig .tc .vmem S32x1x512 .f32) (h4 : a4.IsWhole)
    (hc : ¬cond0_0 i) (x0 : Vec F S1x32x32x512 .f32) (xs0 : Vec F S32x1x512 .f32) :
    out0_B_1 c i a2 h2 a3 h3 a4 h4 hc x0 xs0 = k0_pay3 x0 xs0 := by
  unfold out0_B_1
  rw [View.read_writes_eq_canon _ _ _ (cover0_B_1 c i a2 h2 a3 h3 a4 h4 hc x0 xs0)]
  unfold kernelRun0_B
  dsimp only
  try sl_unfold_words
  rw [View.canon_unit_zero hz3]
  simp only [View.readAt_eq_ld, h2.read_unread, h4.read_unread, View.ld_unit_zero (S := S1x32x32x512) hz4,
    View.ld_unit_zero (S := S32x1x512) hz3]

/-- At a tile-row 0 point: the saved row, first reset, ends at row 31 of the input block all the same. -/
theorem saved_A (c : Dev nD) (i : grid0.Coords) (a2 : Memref sig .tc .vmem S1x32x32x512 .f32) (h2 : a2.IsWhole)
    (a3 : Memref sig .tc .vmem S1x32x512 .f32) (h3 : a3.IsWhole) (a4 : Memref sig .tc .vmem S32x1x512 .f32) (h4 : a4.IsWhole)
    (hc : cond0_0 i) (x0 : Vec F S1x32x32x512 .f32) :
    sout0_A_0 c i a2 h2 a3 h3 a4 h4 hc x0 = k0_pay4 x0 := by
  unfold sout0_A_0
  rw [View.read_writes_eq_canon _ _ _ (scover0_A_0 c i a2 h2 a3 h3 a4 h4 hc x0)]
  unfold kernelRun0_A
  dsimp only
  try sl_unfold_words
  rw [View.canon_cons_unit_zero (S := S32x1x512) hz3]
  simp only [View.readAt_eq_ld, h2.read_unread, View.ld_unit_zero (S := S1x32x32x512) hz4]

/-- At a tile-row 0 point: the output block ends at the channel sum over the input block and the zero splat the
    reset has just stored. -/
theorem out_A (c : Dev nD) (i : grid0.Coords) (a2 : Memref sig .tc .vmem S1x32x32x512 .f32) (h2 : a2.IsWhole)
    (a3 : Memref sig .tc .vmem S1x32x512 .f32) (h3 : a3.IsWhole) (a4 : Memref sig .tc .vmem S32x1x512 .f32) (h4 : a4.IsWhole)
    (hc : cond0_0 i) (x0 : Vec F S1x32x32x512 .f32) :
    out0_A_1 c i a2 h2 a3 h3 a4 h4 hc x0 = k0_pay3 x0 k0_pay1 := by
  unfold out0_A_1
  rw [View.read_writes_eq_canon _ _ _ (cover0_A_1 c i a2 h2 a3 h3 a4 h4 hc x0)]
  unfold kernelRun0_A
  dsimp only
  try sl_unfold_words
  rw [View.canon_unit_zero hz3, View.readCov_unit_zero (S := S32x1x512) _ hz3]
  simp only [View.readAt_eq_ld, h2.read_unread, View.ld_unit_zero (S := S1x32x32x512) hz4]

end Cert.KernelIdeal.TV

end
-- ==== Proof.PayloadAt.lean ====
/-
  The kernel body's three stored values, read at an index on the extended reals.

  The body loads the input block x0 : [1, 32, 32, 512] (channels, 32 rows, 512 columns) and the saved row
  xs : [32, 1, 512] (per channel, the row just above the block). Viewing x0 as v : [32, 32, 512]:
    * the row above (c, r, w) is xs(c, 0, w) for the block's first row r = 0 (a mask on the row coordinate
      selects the broadcast saved row) and v(c, r - 1, w) otherwise (v rotated by one along the rows);
    * the column before is 0 for w = 0 (a mask on the column coordinate selects the zero splat) and
      v(c, r, w - 1) otherwise (v rotated by one along the columns);
    * the value stored to the output block at (0, r, w) is the sum over the channels c of
      |rowabove - v| + |colbefore - v| at (c, r, w);
    * the value stored back to the saved row is row 31 of the block; the reset value is the zero splat.
-/
import proofs.«176600_j26268019982520_1_alg».proof.Proof.Gen.KernelIdeal.Skeleton
import proofs.«176600_j26268019982520_1_alg».proof.Proof.Spec
import Idealize.ShloMosaic.Lib.KernelVsHost
import Idealize.ShloMosaic.Lib.ValueLayout
import Idealize.ShloMosaic.Lib.Pipeline.Value
import Idealize.ShloMosaic.PureOps.Ideal.Laws

noncomputable section

open scoped BigOperators

namespace Cert.KernelIdeal.TV

open Cert.KernelIdeal Cert.KernelIdeal.Gen
open Idealize.ShloMosaic Idealize.ShloMosaic.ValueIdx Cert.TV

section Layout
variable {α : Type}

/-- Rotating by one along the rows: away from the first row, the entry one row up. -/
theorem rotate_rows_apply (v : S32x32x512.Idx → α) (c r : Fin 32) (w : Fin 512) (hr : r.val ≠ 0) :
    dynamicRotate 1 1#32 none v rotates_S32x32x512_d1 (ix3 c r w) = v (ix3 c (prev r) w) :=
  dynamicRotate_apply 1 1#32 v rotates_S32x32x512_d1 (ix3 c r w) (ix3 c (prev r) w) fun b => match b with
    | ⟨0, _⟩ => by rw [if_neg (by decide +revert)]; try rfl
    | ⟨1, _⟩ => by
        rw [if_pos (by decide +revert)]
        show r.val - 1 = (r.val + 32 - (1#32 : BitVec 32).toNat % 32) % 32
        have h1 : (1#32 : BitVec 32).toNat = 1 := by decide
        have := r.isLt
        rw [h1]; omega
    | ⟨2, _⟩ => by rw [if_neg (by decide +revert)]; try rfl

/-- Rotating by one along the columns: away from the first column, the entry one column before. -/
theorem rotate_cols_apply (v : S32x32x512.Idx → α) (c r : Fin 32) (w : Fin 512) (hw : w.val ≠ 0) :
    dynamicRotate 2 1#32 none v rotates_S32x32x512_d2 (ix3 c r w) = v (ix3 c r (prev w)) :=
  dynamicRotate_apply 2 1#32 v rotates_S32x32x512_d2 (ix3 c r w) (ix3 c r (prev w)) fun b => match b with
    | ⟨0, _⟩ => by rw [if_neg (by decide +revert)]; try rfl
    | ⟨1, _⟩ => by rw [if_neg (by decide +revert)]; try rfl
    | ⟨2, _⟩ => by
        rw [if_pos (by decide +revert)]
        show w.val - 1 = (w.val + 512 - (1#32 : BitVec 32).toNat % 512) % 512
        have h1 : (1#32 : BitVec 32).toNat = 1 := by decide
        have := w.isLt
        rw [h1]; omega

/-- The saved row broadcast along the rows reads the saved row at every row. -/
theorem bcast_rows_apply (v : S32x1x512.Idx → α) (c r : Fin 32) (w : Fin 512) :
    broadcastTo S32x32x512 v broadcasts_S32x1x512_S32x32x512 (ix3 c r w) = v (ix3 c (0 : Fin 1) w) :=
  broadcastTo_apply v broadcasts_S32x1x512_S32x32x512 (ix3 c r w) (ix3 c (0 : Fin 1) w) fun a => match a with
    | ⟨0, _⟩ => by rw [if_neg (by decide +revert)]; try rfl
    | ⟨1, _⟩ => by rw [if_pos (by decide +revert)]; try rfl
    | ⟨2, _⟩ => by rw [if_neg (by decide +revert)]; try rfl

/-- The block with its leading unit axis dropped. -/
theorem block_apply {F : FTy → Type} [FloatOps F] (x0 : FVec F S1x32x32x512 .f32) (c r : Fin 32) (w : Fin 512) :
    k0_pay2 (F := F) x0 (ix3 c r w) = x0 (ix4 (0 : Fin 1) c r w) :=
  shapeCast_1abc_abc_apply x0 shapeCasts_S1x32x32x512_S32x32x512 c r w

end Layout

/-- The mask "row coordinate is 0" at (c, r, w). -/
theorem row_mask_apply (c r : Fin 32) (w : Fin 512) :
    cmpi .eq (iota .tc S32x32x512 32 [1] iota_S32x32x512_d1_w32) (broadcast S32x32x512 (0#32 : BitVec 32)) (ix3 c r w)
      = IntOp.cmpi .eq (BitVec.ofNat 32 r.val) 0#32 :=
  congrArg (fun z => IntOp.cmpi .eq z (0#32 : BitVec 32)) (iota_single_apply .tc S32x32x512 32 1 iota_S32x32x512_d1_w32 (ix3 c r w))

/-- The mask "column coordinate is 0" at (c, r, w). -/
theorem col_mask_apply (c r : Fin 32) (w : Fin 512) :
    cmpi .eq (iota .tc S32x32x512 32 [2] iota_S32x32x512_d2_w32) (broadcast S32x32x512 (0#32 : BitVec 32)) (ix3 c r w)
      = IntOp.cmpi .eq (BitVec.ofNat 32 w.val) 0#32 :=
  congrArg (fun z => IntOp.cmpi .eq z (0#32 : BitVec 32)) (iota_single_apply .tc S32x32x512 32 2 iota_S32x32x512_d2_w32 (ix3 c r w))

/-- The zero word is the real zero. -/
theorem zero_word : (Scalar.ofBits .f32 0x00000000#32 : Ideal .f32) = (0 : EReal) := Ideal.ofBits_zero_f32

/-- The row above, inside a block: the saved row for the block's first row, the block one row up otherwise. -/
theorem row_above_apply (x0 : FVec Ideal S1x32x32x512 .f32) (xs : FVec Ideal S32x1x512 .f32) (c r : Fin 32) (w : Fin 512) :
    select (cmpi .eq (iota .tc S32x32x512 32 [1] iota_S32x32x512_d1_w32) (broadcast S32x32x512 (0#32 : BitVec 32)))
        (broadcastTo S32x32x512 (shapeCast S32x1x512 xs shapeCasts_S32x1x512_S32x1x512) broadcasts_S32x1x512_S32x32x512)
        (dynamicRotate 1 1#32 none (k0_pay2 (F := Ideal) x0) rotates_S32x32x512_d1) (ix3 c r w)
      = if r.val = 0 then xs (ix3 c (0 : Fin 1) w) else x0 (ix4 (0 : Fin 1) c (prev r) w) := by
  rw [select_apply, row_mask_apply, select_coord_zero _ (by have := r.isLt; omega)]
  by_cases hr : r.val = 0
  · rw [if_pos hr, if_pos hr, bcast_rows_apply, shapeCast_self]
  · rw [if_neg hr, if_neg hr, rotate_rows_apply _ c r w hr, block_apply]

/-- The column before, inside a block: zero for the first column, the block one column to the left otherwise. -/
theorem col_before_apply (x0 : FVec Ideal S1x32x32x512 .f32) (c r : Fin 32) (w : Fin 512) :
    select (cmpi .eq (iota .tc S32x32x512 32 [2] iota_S32x32x512_d2_w32) (broadcast S32x32x512 (0#32 : BitVec 32)))
        (broadcast S32x32x512 (Scalar.ofBits .f32 0x00000000#32 : Ideal .f32))
        (dynamicRotate 2 1#32 none (k0_pay2 (F := Ideal) x0) rotates_S32x32x512_d2) (ix3 c r w)
      = if w.val = 0 then (0 : EReal) else x0 (ix4 (0 : Fin 1) c r (prev w)) := by
  rw [select_apply, col_mask_apply, select_coord_zero _ (by have := w.isLt; omega)]
  by_cases hw : w.val = 0
  · rw [if_pos hw, if_pos hw, broadcast_apply, zero_word]
  · rw [if_neg hw, if_neg hw, rotate_cols_apply _ c r w hw, block_apply]

/-- The index the channel sum reads at (r, w) for channel k is (k, r, w). -/
theorem lift_channel (r : Fin 32) (w : Fin 512) (k : Fin 32) :
    reduces_S32x32x512_S32x512.lift (ix2 r w) k = ix3 k r w :=
  funext fun a => Fin.ext (by match a with | ⟨0, _⟩ => rfl | ⟨1, _⟩ => rfl | ⟨2, _⟩ => rfl)

/-- The sum over the channel axis, at (r, w). -/
theorem channel_sum (src : FVec Ideal S32x32x512 .f32) (r : Fin 32) (w : Fin 512) :
    multiReduction .add [0] S32x512 src 0x00000000#32 reduces_S32x32x512_S32x512 (.inl rfl) rfl (ix2 r w)
      = ∑ c : Fin 32, src (ix3 c r w) :=
  (Ideal.multiReduction_add_single src 0x00000000#32 reduces_S32x32x512_S32x512 (.inl rfl) rfl (ix2 r w)).trans
    (Finset.sum_congr rfl fun k _ => congrArg src (lift_channel r w k))

/-- One channel's term inside a block, over the saved row `xs` and the block `x0`. -/
def blockTerm (x0 : FVec Ideal S1x32x32x512 .f32) (xs : FVec Ideal S32x1x512 .f32) (c r : Fin 32) (w : Fin 512) : EReal :=
  absE ((if r.val = 0 then xs (ix3 c (0 : Fin 1) w) else x0 (ix4 (0 : Fin 1) c (prev r) w)) - x0 (ix4 (0 : Fin 1) c r w))
    + absE ((if w.val = 0 then (0 : EReal) else x0 (ix4 (0 : Fin 1) c r (prev w))) - x0 (ix4 (0 : Fin 1) c r w))

/-- THE OUTPUT BLOCK's stored value at (0, r, w): the channels' terms summed. -/
theorem out_apply (x0 : FVec Ideal S1x32x32x512 .f32) (xs : FVec Ideal S32x1x512 .f32) (u : Fin 1) (r : Fin 32) (w : Fin 512) :
    k0_pay3 (F := Ideal) x0 xs (ix3 u r w) = ∑ c : Fin 32, blockTerm x0 xs c r w := by
  unfold k0_pay3
  refine (shapeCast_ab_1ab_apply _ shapeCasts_S32x512_S1x32x512 u r w).trans ?_
  refine (channel_sum _ r w).trans ?_
  refine Finset.sum_congr rfl fun c _ => ?_
  show absE (select _ _ _ (ix3 c r w) - k0_pay2 (F := Ideal) x0 (ix3 c r w))
      + absE (select _ _ _ (ix3 c r w) - k0_pay2 (F := Ideal) x0 (ix3 c r w)) = _
  rw [row_above_apply, col_before_apply, block_apply]
  rfl

/-- THE SAVED ROW's stored value at (c, 0, w): row 31 of the block. -/
theorem saved_apply (x0 : FVec Ideal S1x32x32x512 .f32) (c : Fin 32) (u : Fin 1) (w : Fin 512) :
    k0_pay4 (F := Ideal) x0 (ix3 c u w) = x0 (ix4 (0 : Fin 1) c (⟨31, by omega⟩ : Fin 32) w) := by
  unfold k0_pay4
  rw [shapeCast_self]
  refine (extractStridedSlice_apply ![0, 31, 0] _ slices_S32x32x512_o0_31_0_S32x1x512 (ix3 c u w)
    (ix3 c (⟨31, by omega⟩ : Fin 32) w) (fun a => match a with
      | ⟨0, _⟩ => by show c.val = 0 + c.val; omega
      | ⟨1, _⟩ => by have := u.isLt; show 31 = 31 + u.val; omega
      | ⟨2, _⟩ => by show w.val = 0 + w.val; omega)).trans ?_
  exact block_apply x0 c _ w

/-- THE RESET VALUE is zero everywhere. -/
theorem reset_apply (j : S32x1x512.Idx) : k0_pay1 (F := Ideal) j = (0 : EReal) := by
  unfold k0_pay1
  rw [shapeCast_self]
  exact zero_word

end Cert.KernelIdeal.TV

end
-- ==== Proof.TileLaw.lean ====
/-
  One tile of the result from one block of the array.

  Fix a batch b and a tile row q (rows 32q … 32q + 31 of the 512). If the block x0 holds those rows of the array
  X for every channel, and the saved row xs holds, per channel, the row just above the tile (row 32q - 1, or zero
  when q = 0 — the specification's `above` at the tile's first row), then the value the body stores to the output
  block at (0, r, w) is the specification at (b, 32q + r, w): inside the tile the row above row r is the block's
  row r - 1, at the tile's first row it is the saved row, and the column before is read inside the block.
-/
import proofs.«176600_j26268019982520_1_alg».proof.Proof.PayloadAt
import proofs.«176600_j26268019982520_1_alg».proof.Proof.Spec

noncomputable section

open scoped BigOperators

namespace Cert.KernelIdeal.TV

open Cert.KernelIdeal Cert.KernelIdeal.Gen
open Idealize.ShloMosaic Idealize.ShloMosaic.ValueIdx Cert.TV

/-- Row `r` of tile row `q`, as a row of the whole array. -/
def tileRow (q : Fin 16) (r : Fin 32) : Fin 512 :=
  ⟨32 * q.val + r.val, by have := q.isLt; have := r.isLt; omega⟩

theorem tileRow_val (q : Fin 16) (r : Fin 32) : (tileRow q r).val = 32 * q.val + r.val := rfl

theorem tile_eq (X : SX.Idx → EReal) (b : Fin 8) (q : Fin 16)
    (x0 : FVec Ideal S1x32x32x512 .f32) (xs : FVec Ideal S32x1x512 .f32)
    (hx0 : ∀ (c r : Fin 32) (w : Fin 512), x0 (ix4 (0 : Fin 1) c r w) = X (ix4 b c (tileRow q r) w))
    (hxs : ∀ (c : Fin 32) (w : Fin 512), xs (ix3 c (0 : Fin 1) w) = above X b c (tileRow q 0) w)
    (u : Fin 1) (r : Fin 32) (w : Fin 512) :
    k0_pay3 (F := Ideal) x0 xs (ix3 u r w) = G X (ix3 b (tileRow q r) w) := by
  rw [out_apply, G_apply]
  refine Finset.sum_congr rfl fun c _ => ?_
  unfold blockTerm term
  have e1 : (if r.val = 0 then xs (ix3 c (0 : Fin 1) w) else x0 (ix4 (0 : Fin 1) c (prev r) w))
      = above X b c (tileRow q r) w := by
    by_cases hr : r.val = 0
    · rw [if_pos hr, hxs, show r = 0 from Fin.ext hr]
    · rw [if_neg hr, hx0]
      unfold above
      rw [if_neg (by rw [tileRow_val]; omega)]
      have e : tileRow q (prev r) = prev (tileRow q r) :=
        Fin.ext (by rw [tileRow_val, prev_val, prev_val, tileRow_val]; omega)
      rw [e]
  have e2 : (if w.val = 0 then (0 : EReal) else x0 (ix4 (0 : Fin 1) c r (prev w)))
      = before X b c (tileRow q r) w := by
    unfold before
    by_cases hw : w.val = 0
    · rw [if_pos hw, if_pos hw]
    · rw [if_neg hw, if_neg hw, hx0]
  rw [e1, e2, hx0]

end Cert.KernelIdeal.TV

end
-- ==== Proof.KernelValue.lean ====
/-
  The kernel's result array is the specification of its argument.

  The grid has 8 × 16 points, visited batch by batch and, inside a batch, tile row by tile row: point t is batch
  t / 16, tile row t % 16. Its input block is rows 32 (t % 16) … + 31 of that batch, all channels; its output block
  is the same rows of the result. The saved row after ANY point is row 31 of that point's input block, so at a point
  with t % 16 ≠ 0 the saved row read is the last row of the tile above (same batch), and at t % 16 = 0 the body has
  just reset it to zero: in both cases it is the specification's row above the tile's first row. The tile law then
  says each point writes back its block of the specification, and the 128 blocks tile the result.
-/
import proofs.«176600_j26268019982520_1_alg».proof.Proof.Gen.KernelIdeal.Value
import proofs.«176600_j26268019982520_1_alg».proof.Proof.Pieces
import proofs.«176600_j26268019982520_1_alg».proof.Proof.PayloadAt
import proofs.«176600_j26268019982520_1_alg».proof.Proof.TileLaw
import proofs.«176600_j26268019982520_1_alg».proof.Proof.Spec
import Idealize.ShloMosaic.Lib.Pipeline.Value

noncomputable section

open scoped BigOperators

open Idealize.ShloMosaic Idealize.ShloMosaic.TcCoe Idealize.SL.Sem
open Idealize.ShloMosaic.Pipeline (Dat)

namespace Cert.KernelIdeal.TV

open Cert.KernelIdeal Cert.KernelIdeal.Gen Cert.KernelIdeal.Value
open Idealize.ShloMosaic.ValueIdx Cert.TV

variable (m : (ℓ : Loc nD τ sig) → Buf (Elt Ideal) ℓ) (ρ : Dev nD → PrngReg)

/-! ## The grid: batch and tile row of a point, and the windows' block indices -/

/-- The input window's block index at point t is (t / 16, 0, t % 16, 0). -/
theorem idx_in : ∀ t : Fin cfg0.N, win0_0.index t (0 : Fin 4) = t.val / 16 ∧ win0_0.index t (1 : Fin 4) = 0
    ∧ win0_0.index t (2 : Fin 4) = t.val % 16 ∧ win0_0.index t (3 : Fin 4) = 0 :=
  (by decide +kernel : ∀ t : Fin grid0.N, _)

/-- The output window's block index at point t is (t / 16, t % 16, 0). -/
theorem idx_out : ∀ t : Fin cfg0.N, win0_1.index t (0 : Fin 3) = t.val / 16 ∧ win0_1.index t (1 : Fin 3) = t.val % 16
    ∧ win0_1.index t (2 : Fin 3) = 0 :=
  (by decide +kernel : ∀ t : Fin grid0.N, _)

theorem lt_N (t : Fin cfg0.N) : t.val < 128 := lt_of_lt_of_eq t.isLt N_0

/-- The batch of point t. -/
def batchOf (t : Fin cfg0.N) : Fin 8 := ⟨t.val / 16, by have := lt_N t; omega⟩
/-- The tile row of point t. -/
def tileOf (t : Fin cfg0.N) : Fin 16 := ⟨t.val % 16, by omega⟩

/-- The point before t (t itself at 0, where it is never used). -/
def before_pt (t : Fin cfg0.N) : Fin cfg0.N := ⟨t.val - 1, Nat.lt_of_le_of_lt (Nat.sub_le _ _) t.isLt⟩

/-! ## The input blocks are rows of the argument -/

/-- The input block at point t holds, for every channel, rows 32 (t % 16) … + 31 of batch t / 16. -/
theorem iblk_apply (c : Dev nD) (t : Fin cfg0.N) (ch r : Fin 32) (w : Fin 512) :
    (iblk m c 0 t : FVec Ideal S1x32x32x512 .f32) (ix4 (0 : Fin 1) ch r w)
      = (V m c main_arg0 : SX.Idx → EReal) (ix4 (batchOf t) ch (tileRow (tileOf t) r) w) := by
  obtain ⟨e0, e1, e2, e3⟩ := idx_in t
  unfold iblk
  rw [View.read_apply]
  show V m c main_arg0 _ = V m c main_arg0 _
  congr 1
  funext a
  apply Fin.ext
  match a with
  | ⟨0, _⟩ => show win0_0.index t (0 : Fin 4) * 1 + 1 * 0 = t.val / 16; rw [e0]; omega
  | ⟨1, _⟩ => show win0_0.index t (1 : Fin 4) * 32 + 1 * ch.val = ch.val; rw [e1]; omega
  | ⟨2, _⟩ => show win0_0.index t (2 : Fin 4) * 32 + 1 * r.val = 32 * (t.val % 16) + r.val; rw [e2]; omega
  | ⟨3, _⟩ => show win0_0.index t (3 : Fin 4) * 512 + 1 * w.val = w.val; rw [e3]; omega

/-! ## What the saved row and the output block hold after each point -/

/-- After ANY point the saved row is row 31 of that point's input block. -/
theorem saved_after (c : Dev nD) (n : ℕ) (hn : n < cfg0.N) :
    (outsAt0 m c n hn).2 = k0_pay4 (iblk m c 0 ⟨n, hn⟩) := by
  by_cases h0 : n % 16 = 0
  · rw [outsAt0_A m c ⟨n, hn⟩ h0]
    dsimp only
    exact saved_A (F := Ideal) c (grid0.coords ⟨n, hn⟩) (ms0_0 ⟨n, hn⟩) (hs0_0 ⟨n, hn⟩) (ms0_1 ⟨n, hn⟩) (hs0_1 ⟨n, hn⟩)
      scM0_0 (Memref.isWhole_whole _) ((hcond0_0 ⟨n, hn⟩).mpr h0) (iblk m c 0 ⟨n, hn⟩)
  · rw [outsAt0_B m c ⟨n, hn⟩ h0]
    dsimp only
    exact saved_B (F := Ideal) c (grid0.coords ⟨n, hn⟩) (ms0_0 ⟨n, hn⟩) (hs0_0 ⟨n, hn⟩) (ms0_1 ⟨n, hn⟩) (hs0_1 ⟨n, hn⟩)
      scM0_0 (Memref.isWhole_whole _) (fun h => h0 ((hcond0_0 ⟨n, hn⟩).mp h)) (iblk m c 0 ⟨n, hn⟩)
      (outsAt0 m c (n - 1) (Nat.lt_of_le_of_lt (Nat.sub_le _ _) hn)).2

/-- At a point with tile row 0 the output block holds the channel sum over its input block and the zero row. -/
theorem out_after_A (c : Dev nD) (t : Fin cfg0.N) (h0 : t.val % 16 = 0) :
    (outsAt0 m c t.val t.isLt).1 = k0_pay3 (iblk m c 0 t) (k0_pay1 (F := Ideal)) := by
  rw [outsAt0_A m c t h0]
  dsimp only
  exact out_A (F := Ideal) c (grid0.coords t) (ms0_0 t) (hs0_0 t) (ms0_1 t) (hs0_1 t)
    scM0_0 (Memref.isWhole_whole _) ((hcond0_0 t).mpr h0) (iblk m c 0 t)

/-- At any other point it holds the channel sum over its input block and row 31 of the block of the point before. -/
theorem out_after_B (c : Dev nD) (t : Fin cfg0.N) (h0 : ¬t.val % 16 = 0) :
    (outsAt0 m c t.val t.isLt).1 = k0_pay3 (iblk m c 0 t) (k0_pay4 (iblk m c 0 (before_pt t))) := by
  rw [outsAt0_B m c t h0]
  dsimp only
  rw [out_B (F := Ideal) c (grid0.coords t) (ms0_0 t) (hs0_0 t) (ms0_1 t) (hs0_1 t)
    scM0_0 (Memref.isWhole_whole _) (fun h => h0 ((hcond0_0 t).mp h)) (iblk m c 0 t)
    (outsAt0 m c (t.val - 1) (Nat.lt_of_le_of_lt (Nat.sub_le _ _) t.isLt)).2,
    saved_after m c (t.val - 1) (Nat.lt_of_le_of_lt (Nat.sub_le _ _) t.isLt)]
  rfl

/-! ## The saved row a point reads is the row above its tile -/

/-- Tile row 0: the zero row is the specification's row above row 0. -/
theorem reset_is_above (c : Dev nD) (t : Fin cfg0.N) (h0 : t.val % 16 = 0) (ch : Fin 32) (w : Fin 512) :
    (k0_pay1 (F := Ideal) : FVec Ideal S32x1x512 .f32) (ix3 ch (0 : Fin 1) w)
      = above (V m c main_arg0 : SX.Idx → EReal) (batchOf t) ch (tileRow (tileOf t) 0) w := by
  rw [reset_apply]
  unfold above
  rw [if_pos (by rw [tileRow_val]; show 32 * (t.val % 16) + 0 = 0; omega)]

/-- Another tile row: row 31 of the block before is the last row of the tile above, in the same batch. -/
theorem carried_is_above (c : Dev nD) (t : Fin cfg0.N) (h0 : ¬t.val % 16 = 0) (ch : Fin 32) (w : Fin 512) :
    (k0_pay4 (F := Ideal) (iblk m c 0 (before_pt t)) : FVec Ideal S32x1x512 .f32) (ix3 ch (0 : Fin 1) w)
      = above (V m c main_arg0 : SX.Idx → EReal) (batchOf t) ch (tileRow (tileOf t) 0) w := by
  have hN := lt_N t
  rw [saved_apply, iblk_apply]
  unfold above
  rw [if_neg (by rw [tileRow_val]; show ¬(32 * (t.val % 16) + 0 = 0); omega)]
  have eb : batchOf (before_pt t) = batchOf t := Fin.ext (by show (t.val - 1) / 16 = t.val / 16; omega)
  have er : tileRow (tileOf (before_pt t)) (⟨31, by omega⟩ : Fin 32) = prev (tileRow (tileOf t) 0) :=
    Fin.ext (by show 32 * ((t.val - 1) % 16) + 31 = 32 * (t.val % 16) + 0 - 1; omega)
  rw [eb, er]

/-! ## Each point writes back its block of the specification, and the blocks tile the result -/

/-- The output block's index (u, r, w) at point t is (t / 16, 32 (t % 16) + r, w) of the result. -/
theorem out_emb (t : Fin cfg0.N) (u : Fin 1) (r : Fin 32) (w : Fin 512) :
    ((cfg0.win 1).blk t).view.emb (ix3 u r w) = (ix3 (batchOf t) (tileRow (tileOf t) r) w : SO.Idx) := by
  obtain ⟨e0, e1, e2⟩ := idx_out t
  funext a
  apply Fin.ext
  match a with
  | ⟨0, _⟩ => show win0_1.index t (0 : Fin 3) * 1 + 1 * u.val = t.val / 16; rw [e0]; have := u.isLt; omega
  | ⟨1, _⟩ => show win0_1.index t (1 : Fin 3) * 32 + 1 * r.val = 32 * (t.val % 16) + r.val; rw [e1]; omega
  | ⟨2, _⟩ => show win0_1.index t (2 : Fin 3) * 512 + 1 * w.val = w.val; rw [e2]; omega

/-- WHAT POINT t WRITES BACK is block t of the specification of the argument. -/
theorem written_eq (c : Dev nD) (t : Fin cfg0.N) :
    (dats m 0 c).flushed 1 t
      = ((cfg0.win 1).blk t).view.read (Elt Ideal) (G (V m c main_arg0 : SX.Idx → EReal)) := by
  rw [flushed1]
  funext j
  obtain ⟨u, r, w, rfl⟩ : ∃ (u : Fin 1) (r : Fin 32) (w : Fin 512), j = ix3 u r w := ⟨j 0, j 1, j 2, eq_ix3 j⟩
  show (outsAt0 m c t.val t.isLt).1 (ix3 u r w)
    = G (V m c main_arg0 : SX.Idx → EReal) (((cfg0.win 1).blk t).view.emb (ix3 u r w))
  rw [out_emb]
  by_cases h0 : t.val % 16 = 0
  · rw [out_after_A m c t h0]
    exact tile_eq (V m c main_arg0 : SX.Idx → EReal) (batchOf t) (tileOf t) (iblk m c 0 t) (k0_pay1 (F := Ideal))
      (iblk_apply m c t) (reset_is_above m c t h0) u r w
  · rw [out_after_B m c t h0]
    exact tile_eq (V m c main_arg0 : SX.Idx → EReal) (batchOf t) (tileOf t) (iblk m c 0 t)
      (k0_pay4 (iblk m c 0 (before_pt t))) (iblk_apply m c t) (carried_is_above m c t h0) u r w

/-- An index of the result is in point t's block iff each coordinate is in the block's range on its axis. -/
theorem mem_out_blk (t : Fin cfg0.N) (i : S8x512x512.Idx) :
    i ∈ ((cfg0.win 1).blk t).view.set ↔ ∀ a : Fin 3, win0_1.index t a * S1x32x512.size a ≤ (i a).val
      ∧ (i a).val < win0_1.index t a * S1x32x512.size a + S1x32x512.size a := by
  show i ∈ ((View.whole main_v0).slice (win0_1.rect t)).set ↔ _
  rw [View.set_slice_whole, Rect.mem_set_unit]
  exact Iff.rfl

/-- THE RESULT ARRAY after the run is the specification of the argument: row h of batch b lies in the block of
    point 16 b + h / 32. -/
theorem final (c : Dev nD) : (dats m 0 c).arrAt 1 cfg0.N = G (V m c main_arg0 : SX.Idx → EReal) :=
  (dats m 0 c).arrAt_eq_of_cover 1 (G (V m c main_arg0 : SX.Idx → EReal)) (fun t _ => written_eq m c t) fun i => by
    have h0 : (i 0).val < 8 := (i 0).isLt
    have h1 : (i 1).val < 512 := (i 1).isLt
    have h2 : (i 2).val < 512 := (i 2).isLt
    have hlt : 16 * (i 0).val + (i 1).val / 32 < cfg0.N := by rw [show cfg0.N = 128 from N_0]; omega
    refine ⟨⟨16 * (i 0).val + (i 1).val / 32, hlt⟩, flush0_1 _, ?_⟩
    obtain ⟨e0, e1, e2⟩ := idx_out ⟨16 * (i 0).val + (i 1).val / 32, hlt⟩
    rw [mem_out_blk]
    intro a
    match a with
    | ⟨0, _⟩ =>
      show win0_1.index _ (0 : Fin 3) * 1 ≤ (i 0).val ∧ (i 0).val < win0_1.index _ (0 : Fin 3) * 1 + 1
      rw [e0]; dsimp only; omega
    | ⟨1, _⟩ =>
      show win0_1.index _ (1 : Fin 3) * 32 ≤ (i 1).val ∧ (i 1).val < win0_1.index _ (1 : Fin 3) * 32 + 32
      rw [e1]; dsimp only; omega
    | ⟨2, _⟩ =>
      show win0_1.index _ (2 : Fin 3) * 512 ≤ (i 2).val ∧ (i 2).val < win0_1.index _ (2 : Fin 3) * 512 + 512
      rw [e2]; omega

/-- The run, read: the result array at the specification of the argument, the argument unchanged. -/
theorem run : θ_run defs (onTc (τ := τ) (main (F := Ideal))) ⟨m, fun _ => 0, ρ⟩ fun r => ∀ c : Dev nD,
      r.2.mem ((c : Thread nD τ).loc main_v0) = G (m ((c : Thread nD τ).loc main_arg0) : SX.Idx → EReal)
      ∧ r.2.mem ((c : Thread nD τ).loc main_arg0) = m ((c : Thread nD τ).loc main_arg0) :=
  (θ_run defs _ _).mono (fun _ h c => ⟨(h c).1.trans (final m c), (h c).2⟩) (run_blocks m ρ)

end Cert.KernelIdeal.TV

end
-- ==== Proof.lean ====
/-
  A total-variation map with zero padding, summed over channels: for x : [8, 32, 512, 512] the result at (b, h, w) is
      ∑ over the 32 channels c of  |x(b,c,h-1,w) - x(b,c,h,w)| + |x(b,c,h,w-1) - x(b,c,h,w)|,
  an entry outside the array read as zero (Proof/Spec.lean, `G`).

  The reference computes it on whole arrays: two zero-padded shifts, two differences, absolute values, a sum over the
  channel axis (Proof/RefIsSpec.lean). The kernel computes it tile by tile over a grid of 8 batches × 16 tile rows of 32
  rows each, all channels and all 512 columns resident: the column shift is a rotation inside the block masked at
  column 0; the row shift is a rotation inside the block whose first row is replaced by a row saved from the previous
  tile — zeroed at each batch's first tile, and set after every tile to that tile's last row (Proof/Pieces.lean: what
  one run of the body leaves; Proof/PayloadAt.lean: its stored values at an index; Proof/TileLaw.lean: one tile of the
  result from one block; Proof/KernelValue.lean: the saved row is always the row above the tile, each point writes its
  block of `G`, and the 128 blocks tile the result). On the extended reals the two programs apply the same differences
  and absolute values to the same entries and add the same 32 terms, so the results are equal entry by entry; no step
  uses that the entries are finite.
-/
import proofs.«176600_j26268019982520_1_alg».proof.Defs
import proofs.«176600_j26268019982520_1_alg».proof.Proof.Gen.Kernel
import proofs.«176600_j26268019982520_1_alg».proof.Proof.Gen.Kernel.Skeleton
import proofs.«176600_j26268019982520_1_alg».proof.Proof.Gen.Kernel.Launch
import proofs.«176600_j26268019982520_1_alg».proof.Proof.Gen.Kernel.Points
import proofs.«176600_j26268019982520_1_alg».proof.Proof.Gen.Kernel.Frame
import proofs.«176600_j26268019982520_1_alg».proof.Proof.Gen.KernelIdeal
import proofs.«176600_j26268019982520_1_alg».proof.Proof.Gen.KernelIdeal.Skeleton
import proofs.«176600_j26268019982520_1_alg».proof.Proof.Gen.KernelIdeal.Launch
import proofs.«176600_j26268019982520_1_alg».proof.Proof.Gen.KernelIdeal.Points
import proofs.«176600_j26268019982520_1_alg».proof.Proof.Gen.KernelIdeal.Frame
import proofs.«176600_j26268019982520_1_alg».proof.Proof.Gen.ReferenceIdeal
import proofs.«176600_j26268019982520_1_alg».proof.Proof.Gen.Pre_finite_inputs
import proofs.«176600_j26268019982520_1_alg».proof.Proof.Gen.KernelIdeal.Value
import proofs.«176600_j26268019982520_1_alg».proof.Proof.Gen.ReferenceIdeal.Run
import proofs.«176600_j26268019982520_1_alg».proof.Proof.Gen.ReferenceIdeal.Read
import proofs.«176600_j26268019982520_1_alg».proof.Proof.Spec
import proofs.«176600_j26268019982520_1_alg».proof.Proof.RefIsSpec
import proofs.«176600_j26268019982520_1_alg».proof.Proof.KernelValue
import Idealize.ShloMosaic.Adequacy
import Idealize.ShloMosaic.Init

noncomputable section

namespace Cert.Proof

open Idealize.ShloMosaic Idealize.ShloMosaic.TcCoe Idealize.SL.Sem

/-- The kernel as printed runs and leaves its argument unchanged. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference runs and leaves its argument unchanged: its run, with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- No operation of the kernel was rewritten for the reading on the extended reals. -/
theorem preserves : Cert.preserves_Kernel_KernelIdeal := trivial

/-- Both programs end with the specification `G` of the shared argument in their result arrays. -/
theorem algebraic : Cert.algebraic_KernelIdeal_ReferenceIdeal := by
  intro m ρ m' ρ' _ hagree
  refine ⟨fun c => Cert.TV.G (m ((c : Thread Cert.KernelIdeal.nD Cert.KernelIdeal.τ).loc Cert.KernelIdeal.main_arg0)),
    Cert.KernelIdeal.TV.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.TV.Ref.result_eq, hagree c]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
